-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S500x4096 : Shape := ⟨2, ![500, 4096]⟩
abbrev S500 : Shape := ⟨1, ![500]⟩
abbrev S12x500 : Shape := ⟨2, ![12, 500]⟩
abbrev S12 : Shape := ⟨1, ![12]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S500x4096 : S_.BroadcastsInDim S500x4096 (![] : Fin 0 → Fin S500x4096.rank)
  reducesTo_S500x4096_S_d0_1 : S500x4096.ReducesTo [0, 1] S_
  bcast_S_S500 : S_.BroadcastsInDim S500 (![] : Fin 0 → Fin S500.rank)
  reducesTo_S500_S_d0 : S500.ReducesTo [0] S_
  bcast_S_S12x500 : S_.BroadcastsInDim S12x500 (![] : Fin 0 → Fin S12x500.rank)
  reducesTo_S12x500_S_d0_1 : S12x500.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12x500 .f32) (main_arg8 : FVec F S12 .f32) (main_v33 : IVec S_ 1) : IVec S_ 1 :=
  let main_v34 : FVec F S12x500 .f32 := Host.absf main_arg7
  let main_cst_12 : FVec F S_ .f32 := constant S_ .f32 0x7F800000#32
  let main_v35 : FVec F S12x500 .f32 := broadcastInDim S12x500 ![] bcast_S_S12x500 main_cst_12
  let main_v36 : IVec S12x500 1 := cmpf .olt main_v34 main_v35
  let main_c_13 : IVec S_ 1 := constantI S_ 1 1#1
  let main_v37 : IVec S_ 1 := (fun x v => Host.reduce IntOp.andi x v reducesTo_S12x500_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S500 .f32) (main_arg5 : FVec F S500 .f32) (main_arg6 : FVec F S500 .f32) (main_arg7 : FVec F S12x500 .f32) (main_arg8 : FVec F S12 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500 .f32 := Host.absf main_arg4
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  let main_v29 : FVec F S500 .f32 := Host.absf main_arg6
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  fn_part2 (F := F) main_arg7 main_arg8 main_v33

def fn {F : FTy → Type} [FloatOps F] (main_arg0 : FVec F S16384x4096 .f32) (main_arg1 : FVec F S500x4096 .f32) (main_arg2 : FVec F S500 .f32) (main_arg3 : FVec F S500 .f32) (main_arg4 : FVec F S500 .f32) (main_arg5 : FVec F S500 .f32) (main_arg6 : FVec F S500 .f32) (main_arg7 : FVec F S12x500 .f32) (main_arg8 : FVec F S12 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S500x4096 .f32 := Host.absf main_arg1
  let main_cst_0 : FVec F S_ .f32 := constant S_ .f32 0x7F800000#32
  let main_v5 : FVec F S500x4096 .f32 := broadcastInDim S500x4096 ![] bcast_S_S500x4096 main_cst_0
  let main_v6 : IVec S500x4096 1 := cmpf .olt main_v4 main_v5
  let main_c_1 : IVec S_ 1 := constantI S_ 1 1#1
  let main_v7 : IVec S_ 1 := (fun x v => Host.reduce IntOp.andi x v reducesTo_S500x4096_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg4 main_arg5 main_arg6 main_arg7 main_arg8 main_v13 main_v16
-- ==== Kernel.lean ====
abbrev S16384x4096 : Shape := ⟨2, ![16384, 4096]⟩
abbrev S500x4096 : Shape := ⟨2, ![500, 4096]⟩
abbrev S500 : Shape := ⟨1, ![500]⟩
abbrev S12x500 : Shape := ⟨2, ![12, 500]⟩
abbrev S12 : Shape := ⟨1, ![12]⟩
abbrev S4096x500 : Shape := ⟨2, ![4096, 500]⟩
abbrev S500x12 : Shape := ⟨2, ![500, 12]⟩
abbrev S1x500 : Shape := ⟨2, ![1, 500]⟩
abbrev S1x12 : Shape := ⟨2, ![1, 12]⟩
abbrev S16384x12 : Shape := ⟨2, ![16384, 12]⟩
abbrev S512x4096 : Shape := ⟨2, ![512, 4096]⟩
abbrev S512x12 : Shape := ⟨2, ![512, 12]⟩
abbrev S512x500 : Shape := ⟨2, ![512, 500]⟩

abbrev nBuf : Space → Nat
  | .hbm => 18
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S500x4096, .f32⟩
  | .hbm, ⟨2, _⟩ => ⟨S500, .f32⟩
  | .hbm, ⟨3, _⟩ => ⟨S500, .f32⟩
  | .hbm, ⟨4, _⟩ => ⟨S500, .f32⟩
  | .hbm, ⟨5, _⟩ => ⟨S500, .f32⟩
  | .hbm, ⟨6, _⟩ => ⟨S500, .f32⟩
  | .hbm, ⟨7, _⟩ => ⟨S12x500, .f32⟩
  | .hbm, ⟨8, _⟩ => ⟨S12, .f32⟩
  | .hbm, ⟨9, _⟩ => ⟨S4096x500, .f32⟩
  | .hbm, ⟨10, _⟩ => ⟨S500x12, .f32⟩
  | .hbm, ⟨11, _⟩ => ⟨S1x500, .f32⟩
  | .hbm, ⟨12, _⟩ => ⟨S1x500, .f32⟩
  | .hbm, ⟨13, _⟩ => ⟨S1x500, .f32⟩
  | .hbm, ⟨14, _⟩ => ⟨S1x500, .f32⟩
  | .hbm, ⟨15, _⟩ => ⟨S1x500, .f32⟩
  | .hbm, ⟨16, _⟩ => ⟨S1x12, .f32⟩
  | .hbm, ⟨17, _⟩ => ⟨S16384x12, .f32⟩
  | .local _ .vmem, ⟨0, _⟩ => ⟨S512x4096, .f32⟩
  | .local _ .vmem, ⟨1, _⟩ => ⟨S512x4096, .f32⟩
  | .local _ .vmem, ⟨2, _⟩ => ⟨S4096x500, .f32⟩
  | .local _ .vmem, ⟨3, _⟩ => ⟨S1x500, .f32⟩
  | .local _ .vmem, ⟨4, _⟩ => ⟨S1x500, .f32⟩
  | .local _ .vmem, ⟨5, _⟩ => ⟨S1x500, .f32⟩
  | .local _ .vmem, ⟨6, _⟩ => ⟨S1x500, .f32⟩
  | .local _ .vmem, ⟨7, _⟩ => ⟨S1x500, .f32⟩
  | .local _ .vmem, ⟨8, _⟩ => ⟨S500x12, .f32⟩
  | .local _ .vmem, ⟨9, _⟩ => ⟨S1x12, .f32⟩
  | .local _ .vmem, ⟨10, _⟩ => ⟨S512x12, .f32⟩
  | .local _ .vmem, ⟨11, _⟩ => ⟨S512x12, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S500x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S500x4096_S4096x500_1_0 : S500x4096.Transposes [1, 0] S4096x500
  transposes_S12x500_S500x12_1_0 : S12x500.Transposes [1, 0] S500x12
  shapeCasts_S500_S1x500 : S500.ShapeCasts S1x500
  shapeCasts_S12_S1x12 : S12.ShapeCasts S1x12
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x500_S4096x500_0_0 : ∀ a, (![0, 0] : Fin 2 → Nat) a + S4096x500.size a ≤ S4096x500.size a
  h_S4096x500 : 0 < S4096x500.numel
  shapeCasts_S4096x500_S4096x500 : S4096x500.ShapeCasts S4096x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S512x500 : S1x500.Broadcasts S512x500
  inb_S500x12_S500x12_0_0 : ∀ a, (![0, 0] : Fin 2 → Nat) a + S500x12.size a ≤ S500x12.size a
  h_S500x12 : 0 < S500x12.numel
  shapeCasts_S500x12_S500x12 : S500x12.ShapeCasts S500x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S512x12_S512x12_0_0 : ∀ a, (![0, 0] : Fin 2 → Nat) a + S512x12.size a ≤ S512x12.size a
  h_S512x12 : 0 < S512x12.numel
  dot_S512x4096_S4096x500_S512x500_1_0_0_1_n_n_wf : DotDims.WF S512x4096 S4096x500 S512x500 [1] [0] [0] [1] [] []
  dot_S512x500_S500x12_S512x12_1_0_0_1_n_n_wf : DotDims.WF S512x500 S500x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x500.size a ≤ S4096x500.size a
  hwx0_1 : ∀ i : grid0.Coords, EltTy.bits .f32 = 32 ∨ (Rect.block (s := S4096x500) S4096x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x500.size a ≤ S1x500.size a
  hwx0_3 : ∀ i : grid0.Coords, EltTy.bits .f32 = 32 ∨ (Rect.block (s := S1x500) S1x500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x500.size a ≤ S1x500.size a
  hwx0_5 : ∀ i : grid0.Coords, EltTy.bits .f32 = 32 ∨ (Rect.block (s := S1x500) S1x500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x500.size a ≤ S1x500.size a
  hwx0_6 : ∀ i : grid0.Coords, EltTy.bits .f32 = 32 ∨ (Rect.block (s := S1x500) S1x500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500x12.size a ≤ S500x12.size a
  hwx0_7 : ∀ i : grid0.Coords, EltTy.bits .f32 = 32 ∨ (Rect.block (s := S500x12) S500x12.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x12.size a ≤ S1x12.size a
  hwx0_8 : ∀ i : grid0.Coords, EltTy.bits .f32 = 32 ∨ (Rect.block (s := S1x12) S1x12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x12.size a ≤ S16384x12.size a
  hwx0_9 : ∀ i : grid0.Coords, EltTy.bits .f32 = 32 ∨ (Rect.block (s := S16384x12) S512x12.size (cc0_transform_9 i) (hinb0_9 i)).WholeWords (EltTy.packing .f32)

variable [Facts₀]

def dot_S512x4096_S4096x500_S512x500_1_0_0_1_n_n : DotDims S512x4096 S4096x500 S512x500 where
  lhsContracting := [1]
  rhsContracting := [0]
  lhsNonContracting := [0]
  rhsNonContracting := [1]
  lhsBatch := []
  rhsBatch := []
  wf := dot_S512x4096_S4096x500_S512x500_1_0_0_1_n_n_wf
def dot_S512x500_S500x12_S512x12_1_0_0_1_n_n : DotDims S512x500 S500x12 S512x12 where
  lhsContracting := [1]
  rhsContracting := [0]
  lhsNonContracting := [0]
  rhsNonContracting := [1]
  lhsBatch := []
  rhsBatch := []
  wf := dot_S512x500_S500x12_S512x12_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S500x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S512x12.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S500x4096 : Shape := ⟨2, ![500, 4096]⟩
abbrev S500 : Shape := ⟨1, ![500]⟩
abbrev S12x500 : Shape := ⟨2, ![12, 500]⟩
abbrev S12 : Shape := ⟨1, ![12]⟩
abbrev S_ : Shape := ⟨0, ![]⟩
abbrev S4096x500 : Shape := ⟨2, ![4096, 500]⟩
abbrev S16384x500 : Shape := ⟨2, ![16384, 500]⟩
abbrev S1x500 : Shape := ⟨2, ![1, 500]⟩
abbrev S500x12 : Shape := ⟨2, ![500, 12]⟩
abbrev S16384x12 : Shape := ⟨2, ![16384, 12]⟩
abbrev S1x12 : Shape := ⟨2, ![1, 12]⟩

abbrev nBuf : Space → Nat
  | .hbm => 97
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S500x4096, .f32⟩
  | .hbm, ⟨2, _⟩ => ⟨S500, .f32⟩
  | .hbm, ⟨3, _⟩ => ⟨S500, .f32⟩
  | .hbm, ⟨4, _⟩ => ⟨S500, .f32⟩
  | .hbm, ⟨5, _⟩ => ⟨S500, .f32⟩
  | .hbm, ⟨6, _⟩ => ⟨S500, .f32⟩
  | .hbm, ⟨7, _⟩ => ⟨S12x500, .f32⟩
  | .hbm, ⟨8, _⟩ => ⟨S12, .f32⟩
  | .hbm, ⟨9, _⟩ => ⟨S_, .f32⟩
  | .hbm, ⟨10, _⟩ => ⟨S16384x4096, .f32⟩
  | .hbm, ⟨11, _⟩ => ⟨S16384x4096, .i1⟩
  | .hbm, ⟨12, _⟩ => ⟨S_, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S500x4096, .f32⟩
  | .hbm, ⟨20, _⟩ => ⟨S500x4096, .i1⟩
  | .hbm, ⟨21, _⟩ => ⟨S_, .f32⟩
  | .hbm, ⟨22, _⟩ => ⟨S500x4096, .f32⟩
  | .hbm, ⟨23, _⟩ => ⟨S_, .f32⟩
  | .hbm, ⟨24, _⟩ => ⟨S500x4096, .f32⟩
  | .hbm, ⟨25, _⟩ => ⟨S500x4096, .f32⟩
  | .hbm, ⟨26, _⟩ => ⟨S500x4096, .f32⟩
  | .hbm, ⟨27, _⟩ => ⟨S4096x500, .f32⟩
  | .hbm, ⟨28, _⟩ => ⟨S16384x500, .f32⟩
  | .hbm, ⟨29, _⟩ => ⟨S_, .f32⟩
  | .hbm, ⟨30, _⟩ => ⟨S500, .f32⟩
  | .hbm, ⟨31, _⟩ => ⟨S500, .i1⟩
  | .hbm, ⟨32, _⟩ => ⟨S_, .f32⟩
  | .hbm, ⟨33, _⟩ => ⟨S500, .f32⟩
  | .hbm, ⟨34, _⟩ => ⟨S_, .f32⟩
  | .hbm, ⟨35, _⟩ => ⟨S500, .f32⟩
  | .hbm, ⟨36, _⟩ => ⟨S500, .f32⟩
  | .hbm, ⟨37, _⟩ => ⟨S500, .f32⟩
  | .hbm, ⟨38, _⟩ => ⟨S1x500, .f32⟩
  | .hbm, ⟨39, _⟩ => ⟨S16384x500, .f32⟩
  | .hbm, ⟨40, _⟩ => ⟨S16384x500, .f32⟩
  | .hbm, ⟨41, _⟩ => ⟨S1x500, .f32⟩
  | .hbm, ⟨42, _⟩ => ⟨S16384x500, .f32⟩
  | .hbm, ⟨43, _⟩ => ⟨S16384x500, .f32⟩
  | .hbm, ⟨44, _⟩ => ⟨S1x500, .f32⟩
  | .hbm, ⟨45, _⟩ => ⟨S16384x500, .f32⟩
  | .hbm, ⟨46, _⟩ => ⟨S16384x500, .f32⟩
  | .hbm, ⟨47, _⟩ => ⟨S_, .f32⟩
  | .hbm, ⟨48, _⟩ => ⟨S500, .f32⟩
  | .hbm, ⟨49, _⟩ => ⟨S500, .f32⟩
  | .hbm, ⟨50, _⟩ => ⟨S500, .f32⟩
  | .hbm, ⟨51, _⟩ => ⟨S1x500, .f32⟩
  | .hbm, ⟨52, _⟩ => ⟨S16384x500, .f32⟩
  | .hbm, ⟨53, _⟩ => ⟨S16384x500, .f32⟩
  | .hbm, ⟨54, _⟩ => ⟨S1x500, .f32⟩
  | .hbm, ⟨55, _⟩ => ⟨S16384x500, .f32⟩
  | .hbm, ⟨56, _⟩ => ⟨S16384x500, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16384x500, .f32⟩
  | .hbm, ⟨61, _⟩ => ⟨S16384x500, .f32⟩
  | .hbm, ⟨62, _⟩ => ⟨S_, .f32⟩
  | .hbm, ⟨63, _⟩ => ⟨S16384x500, .f32⟩
  | .hbm, ⟨64, _⟩ => ⟨S16384x500, .f32⟩
  | .hbm, ⟨65, _⟩ => ⟨S_, .f32⟩
  | .hbm, ⟨66, _⟩ => ⟨S16384x500, .f32⟩
  | .hbm, ⟨67, _⟩ => ⟨S16384x500, .i1⟩
  | .hbm, ⟨68, _⟩ => ⟨S_, .f32⟩
  | .hbm, ⟨69, _⟩ => ⟨S16384x500, .f32⟩
  | .hbm, ⟨70, _⟩ => ⟨S_, .f32⟩
  | .hbm, ⟨71, _⟩ => ⟨S16384x500, .f32⟩
  | .hbm, ⟨72, _⟩ => ⟨S16384x500, .f32⟩
  | .hbm, ⟨73, _⟩ => ⟨S16384x500, .f32⟩
  | .hbm, ⟨74, _⟩ => ⟨S_, .f32⟩
  | .hbm, ⟨75, _⟩ => ⟨S12x500, .f32⟩
  | .hbm, ⟨76, _⟩ => ⟨S12x500, .i1⟩
  | .hbm, ⟨77, _⟩ => ⟨S_, .f32⟩
  | .hbm, ⟨78, _⟩ => ⟨S12x500, .f32⟩
  | .hbm, ⟨79, _⟩ => ⟨S_, .f32⟩
  | .hbm, ⟨80, _⟩ => ⟨S12x500, .f32⟩
  | .hbm, ⟨81, _⟩ => ⟨S12x500, .f32⟩
  | .hbm, ⟨82, _⟩ => ⟨S12x500, .f32⟩
  | .hbm, ⟨83, _⟩ => ⟨S500x12, .f32⟩
  | .hbm, ⟨84, _⟩ => ⟨S16384x12, .f32⟩
  | .hbm, ⟨85, _⟩ => ⟨S_, .f32⟩
  | .hbm, ⟨86, _⟩ => ⟨S12, .f32⟩
  | .hbm, ⟨87, _⟩ => ⟨S12, .i1⟩
  | .hbm, ⟨88, _⟩ => ⟨S_, .f32⟩
  | .hbm, ⟨89, _⟩ => ⟨S12, .f32⟩
  | .hbm, ⟨90, _⟩ => ⟨S_, .f32⟩
  | .hbm, ⟨91, _⟩ => ⟨S12, .f32⟩
  | .hbm, ⟨92, _⟩ => ⟨S12, .f32⟩
  | .hbm, ⟨93, _⟩ => ⟨S12, .f32⟩
  | .hbm, ⟨94, _⟩ => ⟨S1x12, .f32⟩
  | .hbm, ⟨95, _⟩ => ⟨S16384x12, .f32⟩
  | .hbm, ⟨96, _⟩ => ⟨S16384x12, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_cst_16 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_17 : Ref sig .tc := ⟨.hbm, 85, rfl⟩
abbrev main_v53 : Ref sig .tc := ⟨.hbm, 86, rfl⟩
abbrev main_v54 : Ref sig .tc := ⟨.hbm, 87, rfl⟩
abbrev main_cst_18 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S_S500x4096 : S_.BroadcastsInDim S500x4096 (![] : Fin 0 → Fin S500x4096.rank)
  transposes_S500x4096_S4096x500_1_0 : S500x4096.Transposes [1, 0] S4096x500
  bcast_S_S500 : S_.BroadcastsInDim S500 (![] : Fin 0 → Fin S500.rank)
  bcast_S500_S1x500_1 : S500.BroadcastsInDim S1x500 (![1] : Fin 1 → Fin S1x500.rank)
  bcast_S1x500_S16384x500_0_1 : S1x500.BroadcastsInDim S16384x500 (![0, 1] : Fin 2 → Fin S16384x500.rank)
  bcast_S_S16384x500 : S_.BroadcastsInDim S16384x500 (![] : Fin 0 → Fin S16384x500.rank)
  bcast_S_S12x500 : S_.BroadcastsInDim S12x500 (![] : Fin 0 → Fin S12x500.rank)
  transposes_S12x500_S500x12_1_0 : S12x500.Transposes [1, 0] S500x12
  bcast_S_S12 : S_.BroadcastsInDim S12 (![] : Fin 0 → Fin S12.rank)
  bcast_S12_S1x12_1 : S12.BroadcastsInDim S1x12 (![1] : Fin 1 → Fin S1x12.rank)
  bcast_S1x12_S16384x12_0_1 : S1x12.BroadcastsInDim S16384x12 (![0, 1] : Fin 2 → Fin S16384x12.rank)
  dot_S16384x4096_S4096x500_S16384x500_1_0_0_1_n_n_wf : DotDims.WF S16384x4096 S4096x500 S16384x500 [1] [0] [0] [1] [] []
  dot_S16384x500_S500x12_S16384x12_1_0_0_1_n_n_wf : DotDims.WF S16384x500 S500x12 S16384x12 [1] [0] [0] [1] [] []

variable [Facts₀]

def dot_S16384x4096_S4096x500_S16384x500_1_0_0_1_n_n : DotDims S16384x4096 S4096x500 S16384x500 where
  lhsContracting := [1]
  rhsContracting := [0]
  lhsNonContracting := [0]
  rhsNonContracting := [1]
  lhsBatch := []
  rhsBatch := []
  wf := dot_S16384x4096_S4096x500_S16384x500_1_0_0_1_n_n_wf
def dot_S16384x500_S500x12_S16384x12_1_0_0_1_n_n : DotDims S16384x500 S500x12 S16384x12 where
  lhsContracting := [1]
  rhsContracting := [0]
  lhsNonContracting := [0]
  rhsNonContracting := [1]
  lhsBatch := []
  rhsBatch := []
  wf := dot_S16384x500_S500x12_S16384x12_1_0_0_1_n_n_wf

class Facts : Prop extends Facts₀ where

variable [Facts]
-- ==== Proof.Spec.lean ====
/-
  The function both programs compute, written over plain families of extended reals.

  A row of inputs x, a weight matrix w1, and vectors b1, γ, β, μ, v give a hidden vector, and a second weight
  matrix w2 with a vector b2 give the outputs:

    lin1 j  = Σ_k sgn (x k) · sgn (w1 j k) + sgn (b1 j)
    hid j   = min 1 (max (-1) (γ j · (lin1 j - μ j) · rsqrt (v j + ε) + β j))
    out c   = Σ_j sgn (hid j) · sgn (w2 c j) + sgn (b2 c)

  where sgn is the sign with sgn 0 = 1 (so every factor of the two sums is ±1), rsqrt is the reciprocal square
  root of the extended reals, and ε is one fixed float constant. Nothing here depends on how the rows are tiled, on
  whether a weight matrix is stored transposed, or on the order in which a sum is taken.

  Two spellings of "sgn" occur in programs: a select on "a ≥ 0" between the words of 1.0 and -1.0, and the same
  select with -1 written as the negation of the word of 1.0. Both are sgn (select_ge_words, select_ge_neg).
-/
import Idealize.ShloMosaic.Lib.ValueIdx
import Idealize.ShloMosaic.Lib.IdealHost
import Idealize.ShloMosaic.PureOps.Ideal.Laws
import Idealize.ShloMosaic.PureOps.IdealRules

noncomputable section

namespace Cert.SignNet

open Idealize.ShloMosaic Idealize.ShloMosaic.ValueIdx
open scoped BigOperators

/-- The sign with value `1` at zero: `1` at and above zero, `-1` below it. -/
def sgn (a : EReal) : EReal := if 0 ≤ a then 1 else -1

/-- The constant added to the variance before the reciprocal square root: what the float word denotes. -/
def eps : EReal := Ideal.ofBits .f32 0x3727C5AC#32

/-- One unit of the first layer: the inner product of the signs, plus the bias's sign. -/
def lin1 (xr : Fin 4096 → EReal) (w1 : Fin 500 → Fin 4096 → EReal) (b1 : Fin 500 → EReal) (j : Fin 500) : EReal :=
  (∑ k : Fin 4096, sgn (xr k) * sgn (w1 j k)) + sgn (b1 j)

/-- The hidden unit: the first layer shifted by `μ`, scaled by `γ · rsqrt (v + ε)`, shifted by `β`, clamped to `[-1, 1]`. -/
def hid (xr : Fin 4096 → EReal) (w1 : Fin 500 → Fin 4096 → EReal) (b1 γ β μ v : Fin 500 → EReal) (j : Fin 500) : EReal :=
  min 1 (max (-1) (γ j * (lin1 xr w1 b1 j - μ j) * Ideal.rsqrt (v j + eps) + β j))

/-- One output for one row of inputs: the second layer on the signs of the hidden units. -/
def outRow (xr : Fin 4096 → EReal) (w1 : Fin 500 → Fin 4096 → EReal) (b1 γ β μ v : Fin 500 → EReal)
    (w2 : Fin 12 → Fin 500 → EReal) (b2 : Fin 12 → EReal) (c : Fin 12) : EReal :=
  (∑ j : Fin 500, sgn (hid xr w1 b1 γ β μ v j) * sgn (w2 c j)) + sgn (b2 c)

/-- The whole result array from the nine argument arrays: entry `(r, c)` is `outRow` of row `r` of `x`. -/
def G (x : (⟨2, ![16384, 4096]⟩ : Shape).Idx → EReal) (W1 : (⟨2, ![500, 4096]⟩ : Shape).Idx → EReal)
    (b1 γ β μ v : (⟨1, ![500]⟩ : Shape).Idx → EReal) (W2 : (⟨2, ![12, 500]⟩ : Shape).Idx → EReal)
    (b2 : (⟨1, ![12]⟩ : Shape).Idx → EReal) : (⟨2, ![16384, 12]⟩ : Shape).Idx → EReal :=
  fun i => outRow (fun k => x (ix2 (i 0) k)) (fun j k => W1 (ix2 j k)) (fun j => b1 (ix1 j)) (fun j => γ (ix1 j))
    (fun j => β (ix1 j)) (fun j => μ (ix1 j)) (fun j => v (ix1 j)) (fun c j => W2 (ix2 c j)) (fun c => b2 (ix1 c)) (i 1)

theorem G_ix2 (x : (⟨2, ![16384, 4096]⟩ : Shape).Idx → EReal) (W1 : (⟨2, ![500, 4096]⟩ : Shape).Idx → EReal)
    (b1 γ β μ v : (⟨1, ![500]⟩ : Shape).Idx → EReal) (W2 : (⟨2, ![12, 500]⟩ : Shape).Idx → EReal)
    (b2 : (⟨1, ![12]⟩ : Shape).Idx → EReal) (r : Fin 16384) (c : Fin 12) :
    G x W1 b1 γ β μ v W2 b2 (ix2 r c)
      = outRow (fun k => x (ix2 r k)) (fun j k => W1 (ix2 j k)) (fun j => b1 (ix1 j)) (fun j => γ (ix1 j))
          (fun j => β (ix1 j)) (fun j => μ (ix1 j)) (fun j => v (ix1 j)) (fun c j => W2 (ix2 c j)) (fun c => b2 (ix1 c)) c := rfl

/-! ## The words of 0, 1 and -1 -/

/-- The f32 word `0xBF800000` denotes `-1`. -/
theorem ofBits_neg_one_f32 : Ideal.ofBits .f32 0xBF800000#32 = -1 :=
  IdealRules.sign_bit.ideal_negOnePat .f32

/-- A select on "`a` is at least the word of zero" between the words of `1.0` and `-1.0` is `sgn a`. -/
theorem select_ge_words (a : Ideal .f32) :
    Scalar.select (FloatOps.cmpf .oge a (FloatOps.ofBits (F := Ideal) .f32 0x00000000#32))
      (FloatOps.ofBits (F := Ideal) .f32 0x3F800000#32) (FloatOps.ofBits (F := Ideal) .f32 0xBF800000#32) = sgn a := by
  simp only [Ideal.cmpf_def, Ideal.ofBits_def, Ideal.ofBits_zero_f32, Ideal.ofBits_one_f32, ofBits_neg_one_f32,
    Ideal.cmp, Scalar.select, sgn]
  by_cases h : (0 : EReal) ≤ a <;> simp [h]

/-- The same select with `-1` written as the negation of the word of `1.0`. -/
theorem select_ge_neg (a : Ideal .f32) :
    Scalar.select (FloatOps.cmpf .oge a (FloatOps.ofBits (F := Ideal) .f32 0x00000000#32))
      (FloatOps.ofBits (F := Ideal) .f32 0x3F800000#32) (FloatOps.hostNegf (FloatOps.ofBits (F := Ideal) .f32 0x3F800000#32)) = sgn a := by
  simp only [Ideal.cmpf_def, Ideal.ofBits_def, Ideal.ofBits_zero_f32, Ideal.ofBits_one_f32, Ideal.hostNegf_def,
    Ideal.negf_def, Ideal.cmp, Scalar.select, sgn]
  by_cases h : (0 : EReal) ≤ a <;> simp [h]

end Cert.SignNet

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KernelBody.lean ====
/-
  What the kernel body stores, read at one entry.

  At a grid point the body loads a block x of 512 input rows, the first weight matrix transposed (w1t : 4096 × 500),
  five row vectors (the first bias b1r, then γ, β, μ, v, each 1 × 500), the second weight matrix transposed
  (w2t : 500 × 12) and the second bias as a row (b2r : 1 × 12), and stores one 512 × 12 block. Read at the extended
  reals, entry (p, c) of that block is `outRow` of row p of x and of the weights read through their layouts: the two
  matrix products are sums of products of signs over the contracted axis (the accumulator they start from is zero),
  a row vector broadcast over 512 rows reads its one row, the change to a 16-bit format is the identity, and the
  selects on "≥ 0" between the words of 1.0 and -1.0 are signs.
-/
import proofs.«157432_j7834020348428_2_alg».proof.Proof.Gen.KernelIdeal.Frame
import proofs.«157432_j7834020348428_2_alg».proof.Proof.Spec
import proofs.«157432_j7834020348428_2_alg».proof.Proof.LibMatmulRead
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.SignNet
open scoped BigOperators

/-- The zero offsets of a whole-block access. -/
theorem hz : (![0, 0] : Fin 2 → Nat) = fun _ => 0 := funext fun a => by fin_cases a <;> rfl

/-- Both products contract the left operand's second axis with the right operand's first. -/
theorem rows1 : MatmulRead.RowsByCols dot_S512x4096_S4096x500_S512x500_1_0_0_1_n_n := ⟨rfl, rfl, rfl, rfl, rfl, rfl⟩
theorem rows2 : MatmulRead.RowsByCols dot_S512x500_S500x12_S512x12_1_0_0_1_n_n := ⟨rfl, rfl, rfl, rfl, rfl, rfl⟩

/-- The first layer less the mean, at row `p` and unit `j`. -/
theorem pay5_ix2 (v0 : Vec Ideal S512x4096 .f32) (v7 : Vec Ideal S4096x500 .f32) (v15 v29 : Vec Ideal S1x500 .f32)
    (p : Fin 512) (j : Fin 500) :
    k0_pay5 (F := Ideal) v0 v7 v15 v29 (ix2 p j)
      = lin1 (fun k => v0 (ix2 p k)) (fun j k => v7 (ix2 k j)) (fun j => v15 (ix2 (0 : Fin 1) j)) j - v29 (ix2 (0 : Fin 1) j) := by
  unfold k0_pay5
  rw [subf_apply, addf_apply]
  simp only [matmul]
  rw [MatmulRead.matmul_zero_ix2 rows1 rfl rfl]
  rw [broadcastTo_1b_ab_apply, broadcastTo_1b_ab_apply]
  simp only [shapeCast_self, truncf_apply, select_apply, cmpf_apply, broadcast_apply, select_ge_words]
  rfl

/-- The stored value at `(p, c)`, from the scaled rows `g`, `b`, `v` and the centred first layer `h`. -/
theorem pay1_ix2 (v26 v28 v32 : FVec Ideal S1x500 .f32) (v34 : FVec Ideal S512x500 .f32) (v54 : Vec Ideal S500x12 .f32)
    (v62 : Vec Ideal S1x12 .f32) (p : Fin 512) (c : Fin 12) :
    k0_pay1 (F := Ideal) v26 v28 v32 v34 v54 v62 (ix2 p c)
      = (∑ j : Fin 500, sgn (min 1 (max (-1) (v26 (ix2 (0 : Fin 1) j) * v34 (ix2 p j)
            * Ideal.rsqrt (v32 (ix2 (0 : Fin 1) j) + eps) + v28 (ix2 (0 : Fin 1) j)))) * sgn (v54 (ix2 j c)))
          + sgn (v62 (ix2 (0 : Fin 1) c)) := by
  unfold k0_pay1
  rw [addf_apply]
  simp only [matmul]
  rw [MatmulRead.matmul_zero_ix2 rows2 rfl rfl]
  rw [broadcastTo_1b_ab_apply]
  simp only [shapeCast_self, truncf_apply, select_apply, cmpf_apply, broadcast_apply, select_ge_words,
    minimumf_apply, maximumf_apply, addf_apply, mulf_apply, broadcastTo_1b_ab_apply]
  simp only [Ideal.ofBits_def, Ideal.ofBits_one_f32, ofBits_neg_one_f32]
  rfl

/-- ENTRY `(p, c)` OF THE STORED BLOCK is `outRow` of row `p` of the input block and of the weights as loaded. -/
theorem out_ix2 (x0 : Vec Ideal S512x4096 .f32) (x1 : Vec Ideal S4096x500 .f32) (x2 x3 x4 x5 x6 : Vec Ideal S1x500 .f32)
    (x7 : Vec Ideal S500x12 .f32) (x8 : Vec Ideal S1x12 .f32) (p : Fin 512) (c : Fin 12) :
    out0_9 (F := Ideal) x0 x1 x2 x3 x4 x5 x6 x7 x8 (ix2 p c)
      = outRow (fun k => x0 (ix2 p k)) (fun j k => x1 (ix2 k j)) (fun j => x2 (ix2 (0 : Fin 1) j))
          (fun j => x3 (ix2 (0 : Fin 1) j)) (fun j => x4 (ix2 (0 : Fin 1) j)) (fun j => x5 (ix2 (0 : Fin 1) j))
          (fun j => x6 (ix2 (0 : Fin 1) j)) (fun c j => x7 (ix2 j c)) (fun c => x8 (ix2 (0 : Fin 1) c)) c := by
  unfold out0_9
  rw [View.canon_unit_zero hz]
  simp only [View.ld_unit_zero (S := S512x4096) hz, View.ld_unit_zero (S := S4096x500) hz,
    View.ld_unit_zero (S := S1x500) hz, View.ld_unit_zero (S := S500x12) hz, View.ld_unit_zero (S := S1x12) hz]
  rw [pay1_ix2]
  unfold outRow hid
  refine congrArg (· + sgn (x8 (ix2 (0 : Fin 1) c))) (Finset.sum_congr rfl fun j _ => ?_)
  rw [pay5_ix2]
  unfold k0_pay2 k0_pay3 k0_pay4
  dsimp only
  simp only [shapeCast_self]

end Cert.KernelIdeal.Body

end
-- ==== Proof.KernelValue.lean ====
/-
  The result array of the kernel's program, as one function of the nine argument arrays.

  Before the grid runs, the program transposes the two weight matrices and lays each of the six vectors out as a
  single row; these arrays, and the input array itself, are what the grid's windows read. The grid has 32 points.
  At point t the input window's block is rows 512·t … 512·t + 511 of the input, every other input window's block is its
  whole array, and the output window's block is rows 512·t … 512·t + 511 of the result. So what point t writes back,
  read at (p, c), is the body's stored value there (KernelBody), which is `outRow` of input row 512·t + p and of the
  weights — the transposed matrices read at swapped coordinates, the one-row arrays read in their row — that is,
  entry (512·t + p, c) of `G`. The 32 output blocks tile the result array, so after the run it holds `G` of the
  arguments everywhere.
-/
import proofs.«157432_j7834020348428_2_alg».proof.Proof.Gen.KernelIdeal.Value
import proofs.«157432_j7834020348428_2_alg».proof.Proof.KernelBody
import Idealize.ShloMosaic.Lib.StableHlo.Run
import Idealize.ShloMosaic.Lib.ValueLayout
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.SignNet
open Idealize.ShloMosaic.Pipeline (Dat)

variable (m : (ℓ : Loc nD τ sig) → Buf (Elt Ideal) ℓ) (ρ : Dev nD → PrngReg)

/-! ## The arrays the program prepares before the grid -/

/-- The first weight matrix, transposed. -/
theorem V_v0 (c : Dev nD) : (V m c main_v0 : S4096x500.Idx → EReal)
    = transpose S4096x500 [1, 0] ((m ((c : Thread nD τ).loc main_arg1)) : S500x4096.Idx → EReal) transposes_S500x4096_S4096x500_1_0 := by
  dsimp only [Gen.V, Gen.hostOps0]; after_results

/-- The second weight matrix, transposed. -/
theorem V_v1 (c : Dev nD) : (V m c main_v1 : S500x12.Idx → EReal)
    = transpose S500x12 [1, 0] ((m ((c : Thread nD τ).loc main_arg7)) : S12x500.Idx → EReal) transposes_S12x500_S500x12_1_0 := by
  dsimp only [Gen.V, Gen.hostOps0]; after_results

/-- The first bias as one row. -/
theorem V_v2 (c : Dev nD) : (V m c main_v2 : S1x500.Idx → EReal)
    = shapeCast S1x500 ((m ((c : Thread nD τ).loc main_arg2)) : S500.Idx → EReal) shapeCasts_S500_S1x500 := by
  dsimp only [Gen.V, Gen.hostOps0]; after_results; rfl

/-- The scale γ as one row. -/
theorem V_v3 (c : Dev nD) : (V m c main_v3 : S1x500.Idx → EReal)
    = shapeCast S1x500 ((m ((c : Thread nD τ).loc main_arg3)) : S500.Idx → EReal) shapeCasts_S500_S1x500 := by
  dsimp only [Gen.V, Gen.hostOps0]; after_results; rfl

/-- The shift β as one row. -/
theorem V_v4 (c : Dev nD) : (V m c main_v4 : S1x500.Idx → EReal)
    = shapeCast S1x500 ((m ((c : Thread nD τ).loc main_arg4)) : S500.Idx → EReal) shapeCasts_S500_S1x500 := by
  dsimp only [Gen.V, Gen.hostOps0]; after_results; rfl

/-- The mean μ as one row. -/
theorem V_v5 (c : Dev nD) : (V m c main_v5 : S1x500.Idx → EReal)
    = shapeCast S1x500 ((m ((c : Thread nD τ).loc main_arg5)) : S500.Idx → EReal) shapeCasts_S500_S1x500 := by
  dsimp only [Gen.V, Gen.hostOps0]; after_results; rfl

/-- The variance v as one row. -/
theorem V_v6 (c : Dev nD) : (V m c main_v6 : S1x500.Idx → EReal)
    = shapeCast S1x500 ((m ((c : Thread nD τ).loc main_arg6)) : S500.Idx → EReal) shapeCasts_S500_S1x500 := by
  dsimp only [Gen.V, Gen.hostOps0]; after_results; rfl

/-- The second bias as one row. -/
theorem V_v7 (c : Dev nD) : (V m c main_v7 : S1x12.Idx → EReal)
    = shapeCast S1x12 ((m ((c : Thread nD τ).loc main_arg8)) : S12.Idx → EReal) shapeCasts_S12_S1x12 := by
  dsimp only [Gen.V, Gen.hostOps0]; after_results; rfl

/-! ## Where each window's block sits, decided over the 32 points -/

/-- The input window and the output window move down one block of 512 rows per point. -/
theorem idx0 : ∀ t : Fin cfg0.N, win0_0.index t (0 : Fin 2) = t.val ∧ win0_0.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
/-- Every other window stays on its whole array. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

theorem hN : cfg0.N = 32 := N_0

/-! ## Each window's block read at an entry -/

/-- The input window's block at point `t` is rows `512·t …` of the input array. -/
theorem iblk0_apply (c : Dev nD) (t : Fin cfg0.N) (p : Fin 512) (k : Fin 4096) :
    (iblk m c 0 t : Vec Ideal S512x4096 .f32) (ix2 p k)
      = ((m ((c : Thread nD τ).loc main_arg0)) : S16384x4096.Idx → EReal) (ix2 ⟨t.val * 512 + p.val, by have := t.isLt; have := hN; omega⟩ k) := by
  have hi := idx0 t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * k.val = k.val; omega

/-- Window 1's block, the same at every point, is the first weight matrix read at swapped coordinates. -/
theorem iblk1_apply (c : Dev nD) (t : Fin cfg0.N) (k : Fin 4096) (j : Fin 500) :
    (iblk m c 1 t : Vec Ideal S4096x500 .f32) (ix2 k j) = ((m ((c : Thread nD τ).loc main_arg1)) : S500x4096.Idx → EReal) (ix2 j k) := by
  have hi := idx1 t
  unfold iblk
  rw [View.read_apply]
  show V m c main_v0 (((cfg0.win 1).blk t).view.emb (ix2 k j)) = _
  have he : ((cfg0.win 1).blk t).view.emb (ix2 k j) = (ix2 k j : S4096x500.Idx) := by
    funext a; apply Fin.ext
    match a with
    | ⟨0, _⟩ => show win0_1.index t (0 : Fin 2) * 4096 + 1 * k.val = k.val; omega
    | ⟨1, _⟩ => show win0_1.index t (1 : Fin 2) * 500 + 1 * j.val = j.val; omega
  rw [he, V_v0]
  exact transpose_ix2_apply _ _ _ _

/-- Window 2's block, the same at every point, is the first bias laid out as one row. -/
theorem iblk2_apply (c : Dev nD) (t : Fin cfg0.N) (j : Fin 500) :
    (iblk m c 2 t : Vec Ideal S1x500 .f32) (ix2 (0 : Fin 1) j) = ((m ((c : Thread nD τ).loc main_arg2)) : S500.Idx → EReal) (ix1 j) := by
  have hi := idx2 t
  unfold iblk
  rw [View.read_apply]
  show V m c main_v2 (((cfg0.win 2).blk t).view.emb (ix2 (0 : Fin 1) j)) = _
  have he : ((cfg0.win 2).blk t).view.emb (ix2 (0 : Fin 1) j) = (ix2 (0 : Fin 1) j : S1x500.Idx) := by
    funext a; apply Fin.ext
    match a with
    | ⟨0, _⟩ => show win0_2.index t (0 : Fin 2) * 1 + 1 * 0 = 0; omega
    | ⟨1, _⟩ => show win0_2.index t (1 : Fin 2) * 500 + 1 * j.val = j.val; omega
  rw [he, V_v2]
  exact shapeCast_a_1a_apply _ _ _ _

/-- Window 3's block, the same at every point, is the scale γ laid out as one row. -/
theorem iblk3_apply (c : Dev nD) (t : Fin cfg0.N) (j : Fin 500) :
    (iblk m c 3 t : Vec Ideal S1x500 .f32) (ix2 (0 : Fin 1) j) = ((m ((c : Thread nD τ).loc main_arg3)) : S500.Idx → EReal) (ix1 j) := by
  have hi := idx3 t
  unfold iblk
  rw [View.read_apply]
  show V m c main_v3 (((cfg0.win 3).blk t).view.emb (ix2 (0 : Fin 1) j)) = _
  have he : ((cfg0.win 3).blk t).view.emb (ix2 (0 : Fin 1) j) = (ix2 (0 : Fin 1) j : S1x500.Idx) := by
    funext a; apply Fin.ext
    match a with
    | ⟨0, _⟩ => show win0_3.index t (0 : Fin 2) * 1 + 1 * 0 = 0; omega
    | ⟨1, _⟩ => show win0_3.index t (1 : Fin 2) * 500 + 1 * j.val = j.val; omega
  rw [he, V_v3]
  exact shapeCast_a_1a_apply _ _ _ _

/-- Window 4's block, the same at every point, is the shift β laid out as one row. -/
theorem iblk4_apply (c : Dev nD) (t : Fin cfg0.N) (j : Fin 500) :
    (iblk m c 4 t : Vec Ideal S1x500 .f32) (ix2 (0 : Fin 1) j) = ((m ((c : Thread nD τ).loc main_arg4)) : S500.Idx → EReal) (ix1 j) := by
  have hi := idx4 t
  unfold iblk
  rw [View.read_apply]
  show V m c main_v4 (((cfg0.win 4).blk t).view.emb (ix2 (0 : Fin 1) j)) = _
  have he : ((cfg0.win 4).blk t).view.emb (ix2 (0 : Fin 1) j) = (ix2 (0 : Fin 1) j : S1x500.Idx) := by
    funext a; apply Fin.ext
    match a with
    | ⟨0, _⟩ => show win0_4.index t (0 : Fin 2) * 1 + 1 * 0 = 0; omega
    | ⟨1, _⟩ => show win0_4.index t (1 : Fin 2) * 500 + 1 * j.val = j.val; omega
  rw [he, V_v4]
  exact shapeCast_a_1a_apply _ _ _ _

/-- Window 5's block, the same at every point, is the mean μ laid out as one row. -/
theorem iblk5_apply (c : Dev nD) (t : Fin cfg0.N) (j : Fin 500) :
    (iblk m c 5 t : Vec Ideal S1x500 .f32) (ix2 (0 : Fin 1) j) = ((m ((c : Thread nD τ).loc main_arg5)) : S500.Idx → EReal) (ix1 j) := by
  have hi := idx5 t
  unfold iblk
  rw [View.read_apply]
  show V m c main_v5 (((cfg0.win 5).blk t).view.emb (ix2 (0 : Fin 1) j)) = _
  have he : ((cfg0.win 5).blk t).view.emb (ix2 (0 : Fin 1) j) = (ix2 (0 : Fin 1) j : S1x500.Idx) := by
    funext a; apply Fin.ext
    match a with
    | ⟨0, _⟩ => show win0_5.index t (0 : Fin 2) * 1 + 1 * 0 = 0; omega
    | ⟨1, _⟩ => show win0_5.index t (1 : Fin 2) * 500 + 1 * j.val = j.val; omega
  rw [he, V_v5]
  exact shapeCast_a_1a_apply _ _ _ _

/-- Window 6's block, the same at every point, is the variance v laid out as one row. -/
theorem iblk6_apply (c : Dev nD) (t : Fin cfg0.N) (j : Fin 500) :
    (iblk m c 6 t : Vec Ideal S1x500 .f32) (ix2 (0 : Fin 1) j) = ((m ((c : Thread nD τ).loc main_arg6)) : S500.Idx → EReal) (ix1 j) := by
  have hi := idx6 t
  unfold iblk
  rw [View.read_apply]
  show V m c main_v6 (((cfg0.win 6).blk t).view.emb (ix2 (0 : Fin 1) j)) = _
  have he : ((cfg0.win 6).blk t).view.emb (ix2 (0 : Fin 1) j) = (ix2 (0 : Fin 1) j : S1x500.Idx) := by
    funext a; apply Fin.ext
    match a with
    | ⟨0, _⟩ => show win0_6.index t (0 : Fin 2) * 1 + 1 * 0 = 0; omega
    | ⟨1, _⟩ => show win0_6.index t (1 : Fin 2) * 500 + 1 * j.val = j.val; omega
  rw [he, V_v6]
  exact shapeCast_a_1a_apply _ _ _ _

/-- Window 7's block, the same at every point, is the second weight matrix read at swapped coordinates. -/
theorem iblk7_apply (c : Dev nD) (t : Fin cfg0.N) (j : Fin 500) (q : Fin 12) :
    (iblk m c 7 t : Vec Ideal S500x12 .f32) (ix2 j q) = ((m ((c : Thread nD τ).loc main_arg7)) : S12x500.Idx → EReal) (ix2 q j) := by
  have hi := idx7 t
  unfold iblk
  rw [View.read_apply]
  show V m c main_v1 (((cfg0.win 7).blk t).view.emb (ix2 j q)) = _
  have he : ((cfg0.win 7).blk t).view.emb (ix2 j q) = (ix2 j q : S500x12.Idx) := by
    funext a; apply Fin.ext
    match a with
    | ⟨0, _⟩ => show win0_7.index t (0 : Fin 2) * 500 + 1 * j.val = j.val; omega
    | ⟨1, _⟩ => show win0_7.index t (1 : Fin 2) * 12 + 1 * q.val = q.val; omega
  rw [he, V_v1]
  exact transpose_ix2_apply _ _ _ _

/-- Window 8's block, the same at every point, is the second bias laid out as one row. -/
theorem iblk8_apply (c : Dev nD) (t : Fin cfg0.N) (q : Fin 12) :
    (iblk m c 8 t : Vec Ideal S1x12 .f32) (ix2 (0 : Fin 1) q) = ((m ((c : Thread nD τ).loc main_arg8)) : S12.Idx → EReal) (ix1 q) := by
  have hi := idx8 t
  unfold iblk
  rw [View.read_apply]
  show V m c main_v7 (((cfg0.win 8).blk t).view.emb (ix2 (0 : Fin 1) q)) = _
  have he : ((cfg0.win 8).blk t).view.emb (ix2 (0 : Fin 1) q) = (ix2 (0 : Fin 1) q : S1x12.Idx) := by
    funext a; apply Fin.ext
    match a with
    | ⟨0, _⟩ => show win0_8.index t (0 : Fin 2) * 1 + 1 * 0 = 0; omega
    | ⟨1, _⟩ => show win0_8.index t (1 : Fin 2) * 12 + 1 * q.val = q.val; omega
  rw [he, V_v7]
  exact shapeCast_a_1a_apply _ _ _ _

/-! ## What a point writes back, and the array after the run -/

/-- The stored block of point `t` at `(p, c)` is entry `(512·t + p, c)` of `G` of the argument arrays. -/
theorem stored_entry (c : Dev nD) (t : Fin cfg0.N) (p : Fin 512) (q : Fin 12) :
    out0_9 (F := Ideal) (iblk m c 0 t) (iblk m c 1 t) (iblk m c 2 t) (iblk m c 3 t) (iblk m c 4 t) (iblk m c 5 t)
        (iblk m c 6 t) (iblk m c 7 t) (iblk m c 8 t) (ix2 p q)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + p.val, by have := t.isLt; have := hN; omega⟩ q) := by
  refine (Body.out_ix2 _ _ _ _ _ _ _ _ _ p q).trans ?_
  rw [G_ix2]
  simp only [iblk0_apply, iblk1_apply, iblk2_apply, iblk3_apply, iblk4_apply, iblk5_apply, iblk6_apply, iblk7_apply,
    iblk8_apply]

/-- The output window's block at point `t` is rows `512·t …` of the result array. -/
theorem emb9 (t : Fin cfg0.N) (p : Fin 512) (q : Fin 12) :
    ((cfg0.win 9).blk t).view.emb (ix2 p q)
      = (ix2 ⟨t.val * 512 + p.val, by have := t.isLt; have := hN; omega⟩ q : S16384x12.Idx) := by
  have hi := idx9 t
  funext a; apply Fin.ext
  match a with
  | ⟨0, _⟩ => show win0_9.index t (0 : Fin 2) * 512 + 1 * p.val = t.val * 512 + p.val; omega
  | ⟨1, _⟩ => show win0_9.index t (1 : Fin 2) * 12 + 1 * q.val = q.val; omega

/-- WHAT POINT `t` WRITES BACK is block `t` of `G` of the argument arrays. -/
theorem flushed_eq (c : Dev nD) (t : Fin cfg0.N) :
    (dats m 0 c).flushed 9 t = ((cfg0.win 9).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [flushed9]
  funext y
  obtain ⟨p, q, rfl⟩ : ∃ (p : Fin 512) (q : Fin 12), y = (ix2 p q : S512x12.Idx) := ⟨y 0, y 1, eq_ix2 (n0 := 512) (n1 := 12) y⟩
  show out0_9 (F := Ideal) (iblk m c 0 t) (iblk m c 1 t) (iblk m c 2 t) (iblk m c 3 t) (iblk m c 4 t) (iblk m c 5 t)
        (iblk m c 6 t) (iblk m c 7 t) (iblk m c 8 t) (ix2 p q)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p q))
  rw [emb9]
  exact stored_entry m c t p q

/-- An index of the result array is in point `t`'s block iff each coordinate is in the block's range on its axis. -/
theorem mem_blk (t : Fin cfg0.N) (i : S16384x12.Idx) :
    i ∈ ((cfg0.win 9).blk t).view.set ↔ ∀ a : Fin 2, win0_9.index t a * S512x12.size a ≤ (i a).val ∧ (i a).val < win0_9.index t a * S512x12.size a + S512x12.size a := by
  show i ∈ ((View.whole main_v8).slice (win0_9.rect t)).set ↔ _
  rw [View.set_slice_whole, Rect.mem_set_unit]
  exact Iff.rfl

/-- Every index of the result array is in the block of the point its row falls under: row `r` under point `r / 512`. -/
theorem cover (i : S16384x12.Idx) : ∃ t : Fin cfg0.N, (cfg0.win 9).flush t = true ∧ i ∈ ((cfg0.win 9).blk t).view.set := by
  have hi0 : (i 0).val < 16384 := (i 0).isLt
  have hi1 : (i 1).val < 12 := (i 1).isLt
  have hn := hN
  have hn' : grid0.N = 32 := N_0
  refine ⟨⟨(i 0).val / 512, by omega⟩, flush0_9 _, ?_⟩
  rw [mem_blk]
  have e := idx9 ⟨(i 0).val / 512, by omega⟩
  have e0 : win0_9.index ⟨(i 0).val / 512, by omega⟩ (0 : Fin 2) = (i 0).val / 512 := e.1
  have e1 : win0_9.index ⟨(i 0).val / 512, by omega⟩ (1 : Fin 2) = 0 := e.2
  intro a
  match a with
  | ⟨0, _⟩ =>
    show win0_9.index ⟨(i 0).val / 512, _⟩ (0 : Fin 2) * 512 ≤ (i 0).val ∧ (i 0).val < win0_9.index ⟨(i 0).val / 512, _⟩ (0 : Fin 2) * 512 + 512
    rw [e0]; omega
  | ⟨1, _⟩ =>
    show win0_9.index ⟨(i 0).val / 512, _⟩ (1 : Fin 2) * 12 ≤ (i 1).val ∧ (i 1).val < win0_9.index ⟨(i 0).val / 512, _⟩ (1 : Fin 2) * 12 + 12
    rw [e1]; omega

/-- THE RESULT ARRAY after the run is `G` of the argument arrays. -/
theorem final (c : Dev nD) : (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Hand

end
-- ==== Proof.RefValue.lean ====
/-
  The reference program's result, read entry by entry, is the specification function.

  The reference takes a row-major array x, two weight matrices W1 and W2 stored with the output unit as the
  first coordinate, and vectors b1, γ, β, μ, v, b2. At entry (r, c) it computes

      Σ_j sgn (h r j) · sgn (W2 c j) + sgn (b2 c),
      h r j = min 1 (max (-1) (γ j · ((Σ_k sgn (x r k) · sgn (W1 j k) + sgn (b1 j)) - μ j) · rsqrt (v j + ε) + β j)),

  where sgn is written as a choice on "a ≥ 0" between the word of 1 and its negation, the bounds of the clamp are
  the words of -1 and 1, and ε is one float word that is never evaluated. The two inner products are contractions
  of a matrix of signs with the transpose of a matrix of signs; every vector is spread along the rows through a
  one-row matrix.

  Each operation's result is read at an index from its operands at an index. A pointwise operation reads its
  operands at the same index; a transpose reads at the swapped index; a vector spread along the rows reads at
  the column coordinate; a contraction is the sum over the contracted coordinate. Reading the stages in program
  order, each lemma below states what one stage holds at an index built from literal coordinates, in terms of
  the specification's functions sgn, lin1 and hid. No algebraic law is used: after every stage has been read the
  two sides are the same expression.
-/
import proofs.«157432_j7834020348428_2_alg».proof.Proof.Spec
import proofs.«157432_j7834020348428_2_alg».proof.Proof.Gen.ReferenceIdeal.Read
import Idealize.ShloMosaic.Lib.IdealHost

noncomputable section

namespace Cert.ReferenceIdeal.RefValue

open Idealize.ShloMosaic Idealize.ShloMosaic.ValueIdx Cert.ReferenceIdeal Cert.ReferenceIdeal.Read Cert.SignNet
open scoped BigOperators

variable (x0 : (⟨2, ![16384, 4096]⟩ : Shape).Idx → EReal) (x1 : (⟨2, ![500, 4096]⟩ : Shape).Idx → EReal)
  (x2 x3 x4 x5 x6 : (⟨1, ![500]⟩ : Shape).Idx → EReal) (x7 : (⟨2, ![12, 500]⟩ : Shape).Idx → EReal)
  (x8 : (⟨1, ![12]⟩ : Shape).Idx → EReal)

/-! ## The first layer -/

/-- The sign of the input array: the stage that chooses between 1 and -1 on "x ≥ 0" is `sgn` of the entry. -/
theorem sign_x (i : (⟨2, ![16384, 4096]⟩ : Shape).Idx) : val_main_v5 (F := Ideal) x0 i = sgn (x0 i) := by
  rw [val_main_v5_apply, val_main_v1_apply, val_main_v0_apply, val_main_cst_apply, val_main_v2_apply,
    val_main_cst_0_apply, val_main_v4_apply, val_main_v3_apply, val_main_cst_1_apply]
  exact select_ge_neg (x0 i)

/-- The sign of the first weight matrix, entry by entry. -/
theorem sign_w1 (i : (⟨2, ![500, 4096]⟩ : Shape).Idx) : val_main_v11 (F := Ideal) x1 i = sgn (x1 i) := by
  rw [val_main_v11_apply, val_main_v7_apply, val_main_v6_apply, val_main_cst_2_apply, val_main_v8_apply,
    val_main_cst_3_apply, val_main_v10_apply, val_main_v9_apply, val_main_cst_4_apply]
  exact select_ge_neg (x1 i)

/-- The transposed sign matrix at `(k, j)` is the sign of the weight at `(j, k)`. -/
theorem sign_w1_transposed (k : Fin 4096) (j : Fin 500) :
    val_main_v12 (F := Ideal) x1 (ix2 k j) = sgn (x1 (ix2 j k)) := by
  rw [val_main_v12_apply, sign_w1]
  exact congrArg (fun i => sgn (x1 i)) (funext fun a => match a with | ⟨0, _⟩ => rfl | ⟨1, _⟩ => rfl)

/-- The first contraction at `(r, j)`: the inner product of the signs of row `r` of the input and of row `j` of
    the first weight matrix. -/
theorem dot1 (r : Fin 16384) (j : Fin 500) :
    val_main_v13 (F := Ideal) x0 x1 (ix2 r j) = ∑ k : Fin 4096, sgn (x0 (ix2 r k)) * sgn (x1 (ix2 j k)) := by
  rw [val_main_v13_apply]
  refine Finset.sum_congr rfl fun k _ => ?_
  have hl : lidx_main_v13 (ix2 r j) k = ix2 r k := funext fun a => match a with | ⟨0, _⟩ => rfl | ⟨1, _⟩ => rfl
  have hr : ridx_main_v13 (ix2 r j) k = ix2 k j := funext fun a => match a with | ⟨0, _⟩ => rfl | ⟨1, _⟩ => rfl
  rw [hl, hr, sign_x, sign_w1_transposed]

/-- The sign of the first bias vector, entry by entry. -/
theorem sign_b1 (i : (⟨1, ![500]⟩ : Shape).Idx) : val_main_v19 (F := Ideal) x2 i = sgn (x2 i) := by
  rw [val_main_v19_apply, val_main_v15_apply, val_main_v14_apply, val_main_cst_5_apply, val_main_v16_apply,
    val_main_cst_6_apply, val_main_v18_apply, val_main_v17_apply, val_main_cst_7_apply]
  exact select_ge_neg (x2 i)

/-- The first bias's signs spread along the rows: at `(r, j)` the sign of entry `j`. -/
theorem rows_b1 (r : Fin 16384) (j : Fin 500) : val_main_v21 (F := Ideal) x2 (ix2 r j) = sgn (x2 (ix1 j)) := by
  rw [val_main_v21_apply, val_main_v20_apply, sign_b1]
  exact congrArg (fun i => sgn (x2 i)) (funext fun a => match a with | ⟨0, _⟩ => rfl)

/-- The first layer at `(r, j)`: the inner product of the signs plus the bias's sign. -/
theorem layer1 (r : Fin 16384) (j : Fin 500) :
    val_main_v22 (F := Ideal) x0 x1 x2 (ix2 r j)
      = lin1 (fun k => x0 (ix2 r k)) (fun j k => x1 (ix2 j k)) (fun j => x2 (ix1 j)) j := by
  rw [val_main_v22_apply, dot1, rows_b1, Ideal.addf_def]
  rfl

/-! ## The normalisation and the clamp -/

/-- The running mean spread along the rows: at `(r, j)` its entry `j`. -/
theorem rows_mean (r : Fin 16384) (j : Fin 500) : val_main_v24 (F := Ideal) x5 (ix2 r j) = x5 (ix1 j) := by
  rw [val_main_v24_apply, val_main_v23_apply]
  exact congrArg x5 (funext fun a => match a with | ⟨0, _⟩ => rfl)

/-- The scale spread along the rows: at `(r, j)` its entry `j`. -/
theorem rows_scale (r : Fin 16384) (j : Fin 500) : val_main_v27 (F := Ideal) x3 (ix2 r j) = x3 (ix1 j) := by
  rw [val_main_v27_apply, val_main_v26_apply]
  exact congrArg x3 (funext fun a => match a with | ⟨0, _⟩ => rfl)

/-- The reciprocal square root of the running variance plus the constant, entry by entry. -/
theorem inv_std (i : (⟨1, ![500]⟩ : Shape).Idx) :
    val_main_v31 (F := Ideal) x6 i = Ideal.rsqrt (x6 i + eps) := by
  rw [val_main_v31_apply, val_main_v30_apply, val_main_v29_apply, val_main_cst_8_apply, Ideal.hostUnary_rsqrt_def,
    Ideal.addf_def, Ideal.ofBits_def]
  rfl

/-- The reciprocal square root spread along the rows: at `(r, j)` its entry `j`. -/
theorem rows_inv_std (r : Fin 16384) (j : Fin 500) :
    val_main_v33 (F := Ideal) x6 (ix2 r j) = Ideal.rsqrt (x6 (ix1 j) + eps) := by
  rw [val_main_v33_apply, val_main_v32_apply, inv_std]
  exact congrArg (fun i => Ideal.rsqrt (x6 i + eps)) (funext fun a => match a with | ⟨0, _⟩ => rfl)

/-- The shift spread along the rows: at `(r, j)` its entry `j`. -/
theorem rows_shift (r : Fin 16384) (j : Fin 500) : val_main_v36 (F := Ideal) x4 (ix2 r j) = x4 (ix1 j) := by
  rw [val_main_v36_apply, val_main_v35_apply]
  exact congrArg x4 (funext fun a => match a with | ⟨0, _⟩ => rfl)

/-- The normalised first layer at `(r, j)`: shifted by the mean, scaled, shifted again. -/
theorem normalised (r : Fin 16384) (j : Fin 500) :
    val_main_v37 (F := Ideal) x0 x1 x2 x3 x4 x5 x6 (ix2 r j)
      = x3 (ix1 j) * (lin1 (fun k => x0 (ix2 r k)) (fun j k => x1 (ix2 j k)) (fun j => x2 (ix1 j)) j - x5 (ix1 j))
          * Ideal.rsqrt (x6 (ix1 j) + eps) + x4 (ix1 j) := by
  rw [val_main_v37_apply, val_main_v34_apply, val_main_v28_apply, val_main_v25_apply, layer1, rows_mean, rows_scale,
    rows_inv_std, rows_shift, Ideal.addf_def, Ideal.mulf_def, Ideal.mulf_def, Ideal.subf_def]

/-- The hidden unit at `(r, j)`: the normalised first layer clamped between the words of -1 and 1. -/
theorem hidden (r : Fin 16384) (j : Fin 500) :
    val_main_v38 (F := Ideal) x0 x1 x2 x3 x4 x5 x6 (ix2 r j)
      = hid (fun k => x0 (ix2 r k)) (fun j k => x1 (ix2 j k)) (fun j => x2 (ix1 j)) (fun j => x3 (ix1 j))
          (fun j => x4 (ix1 j)) (fun j => x5 (ix1 j)) (fun j => x6 (ix1 j)) j := by
  rw [val_main_v38_apply, val_main_call3_v4_apply, val_main_call3_v3_apply, val_main_cst_10_apply,
    val_main_call3_v2_apply, val_main_call3_v1_apply, val_main_call3_v0_apply, val_main_cst_9_apply, normalised,
    Ideal.minimumf_def, Ideal.maximumf_def, Ideal.ofBits_def, Ideal.ofBits_def, Ideal.ofBits_one_f32,
    ofBits_neg_one_f32]
  rfl

/-! ## The second layer -/

/-- The sign of the hidden unit at `(r, j)`. -/
theorem sign_hidden (r : Fin 16384) (j : Fin 500) :
    val_main_v44 (F := Ideal) x0 x1 x2 x3 x4 x5 x6 (ix2 r j)
      = sgn (hid (fun k => x0 (ix2 r k)) (fun j k => x1 (ix2 j k)) (fun j => x2 (ix1 j)) (fun j => x3 (ix1 j))
          (fun j => x4 (ix1 j)) (fun j => x5 (ix1 j)) (fun j => x6 (ix1 j)) j) := by
  rw [val_main_v44_apply, val_main_v40_apply, val_main_v39_apply, val_main_cst_11_apply, val_main_v41_apply,
    val_main_cst_12_apply, val_main_v43_apply, val_main_v42_apply, val_main_cst_13_apply, hidden]
  exact select_ge_neg _

/-- The sign of the second weight matrix, entry by entry. -/
theorem sign_w2 (i : (⟨2, ![12, 500]⟩ : Shape).Idx) : val_main_v50 (F := Ideal) x7 i = sgn (x7 i) := by
  rw [val_main_v50_apply, val_main_v46_apply, val_main_v45_apply, val_main_cst_14_apply, val_main_v47_apply,
    val_main_cst_15_apply, val_main_v49_apply, val_main_v48_apply, val_main_cst_16_apply]
  exact select_ge_neg (x7 i)

/-- The transposed sign matrix at `(j, c)` is the sign of the weight at `(c, j)`. -/
theorem sign_w2_transposed (j : Fin 500) (c : Fin 12) :
    val_main_v51 (F := Ideal) x7 (ix2 j c) = sgn (x7 (ix2 c j)) := by
  rw [val_main_v51_apply, sign_w2]
  exact congrArg (fun i => sgn (x7 i)) (funext fun a => match a with | ⟨0, _⟩ => rfl | ⟨1, _⟩ => rfl)

/-- The second contraction at `(r, c)`: the inner product of the signs of the hidden units of row `r` and of row
    `c` of the second weight matrix. -/
theorem dot2 (r : Fin 16384) (c : Fin 12) :
    val_main_v52 (F := Ideal) x0 x1 x2 x3 x4 x5 x6 x7 (ix2 r c)
      = ∑ j : Fin 500, sgn (hid (fun k => x0 (ix2 r k)) (fun j k => x1 (ix2 j k)) (fun j => x2 (ix1 j))
          (fun j => x3 (ix1 j)) (fun j => x4 (ix1 j)) (fun j => x5 (ix1 j)) (fun j => x6 (ix1 j)) j)
          * sgn (x7 (ix2 c j)) := by
  rw [val_main_v52_apply]
  refine Finset.sum_congr rfl fun j _ => ?_
  have hl : lidx_main_v52 (ix2 r c) j = ix2 r j := funext fun a => match a with | ⟨0, _⟩ => rfl | ⟨1, _⟩ => rfl
  have hr : ridx_main_v52 (ix2 r c) j = ix2 j c := funext fun a => match a with | ⟨0, _⟩ => rfl | ⟨1, _⟩ => rfl
  rw [hl, hr, sign_hidden, sign_w2_transposed]

/-- The sign of the second bias vector, entry by entry. -/
theorem sign_b2 (i : (⟨1, ![12]⟩ : Shape).Idx) : val_main_v58 (F := Ideal) x8 i = sgn (x8 i) := by
  rw [val_main_v58_apply, val_main_v54_apply, val_main_v53_apply, val_main_cst_17_apply, val_main_v55_apply,
    val_main_cst_18_apply, val_main_v57_apply, val_main_v56_apply, val_main_cst_19_apply]
  exact select_ge_neg (x8 i)

/-- The second bias's signs spread along the rows: at `(r, c)` the sign of entry `c`. -/
theorem rows_b2 (r : Fin 16384) (c : Fin 12) : val_main_v60 (F := Ideal) x8 (ix2 r c) = sgn (x8 (ix1 c)) := by
  rw [val_main_v60_apply, val_main_v59_apply, sign_b2]
  exact congrArg (fun i => sgn (x8 i)) (funext fun a => match a with | ⟨0, _⟩ => rfl)

/-! ## The result -/

/-- The reference's result array is the specification function of the nine argument arrays. -/
theorem result_eq : val_main_v61 (F := Ideal) x0 x1 x2 x3 x4 x5 x6 x7 x8 = G x0 x1 x2 x3 x4 x5 x6 x7 x8 := by
  funext i
  obtain ⟨r, c, rfl⟩ : ∃ (r : Fin 16384) (c : Fin 12), i = ix2 r c := ⟨i 0, i 1, eq_ix2 i⟩
  rw [val_main_v61_apply, dot2, rows_b2, Ideal.addf_def, G_ix2]
  rfl

end Cert.ReferenceIdeal.RefValue

end
-- ==== Proof.lean ====
/-
  The kernel's program and its reference compute one function of the nine argument arrays.

  The function (Proof/Spec.lean, `G`): with sgn the sign that is 1 at zero, entry (r, c) of the result is
      Σ_j sgn (h r j) · sgn (W2 c j) + sgn (b2 c),
      h r j = min 1 (max (-1) (γ j · ((Σ_k sgn (x r k) · sgn (W1 j k) + sgn (b1 j)) - μ j) · rsqrt (v j + ε) + β j)).

  The kernel's side (Proof/KernelBody.lean, Proof/KernelValue.lean): the program transposes the two weight matrices and
  lays the vectors out as rows, then runs a grid of 32 points, each storing a block of 512 rows of the result; what a
  point stores, read entry by entry, is `G` at the rows the block covers, and the blocks tile the result.
  The reference's side (Proof/RefValue.lean): each of its operations read at an index gives the same expression.
  Nothing joins the two sides beyond reading both at an entry: a matrix product is a sum over the contracted axis
  whichever way its operands are tiled or stored, a change of float format is the identity on the extended reals, and
  the word of -1.0 denotes the negation of what the word of 1.0 denotes. No input needs to be finite for this.

  The three programs terminate without fault and leave their arguments unchanged: for the two kernel programs that is
  the generated frame, for the reference its generated run with the result dropped. The idealisation rewrote no
  operation, so there is nothing to preserve beyond the program text itself.
-/
import proofs.«157432_j7834020348428_2_alg».proof.Defs
import proofs.«157432_j7834020348428_2_alg».proof.Proof.Gen.Kernel
import proofs.«157432_j7834020348428_2_alg».proof.Proof.Gen.Kernel.Frame
import proofs.«157432_j7834020348428_2_alg».proof.Proof.Gen.KernelIdeal
import proofs.«157432_j7834020348428_2_alg».proof.Proof.Gen.KernelIdeal.Frame
import proofs.«157432_j7834020348428_2_alg».proof.Proof.Gen.KernelIdeal.Value
import proofs.«157432_j7834020348428_2_alg».proof.Proof.Gen.ReferenceIdeal
import proofs.«157432_j7834020348428_2_alg».proof.Proof.Gen.ReferenceIdeal.Run
import proofs.«157432_j7834020348428_2_alg».proof.Proof.Gen.ReferenceIdeal.Read
import proofs.«157432_j7834020348428_2_alg».proof.Proof.Gen.Pre_finite_inputs
import proofs.«157432_j7834020348428_2_alg».proof.Proof.KernelValue
import proofs.«157432_j7834020348428_2_alg».proof.Proof.RefValue
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- The same program read at the extended reals runs and keeps its arguments. -/
theorem frame_kernel_ideal : Cert.frame_KernelIdeal := fun m ρ _ => Cert.KernelIdeal.Gen.frame m ρ

/-- The reference runs and keeps its arguments: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten when the kernel's program was read at the extended reals. -/
theorem preserves : Cert.preserves_Kernel_KernelIdeal := trivial

/-- From memories that agree on the nine arguments both programs end with the result array at `G` of those arguments:
    the kernel's by its run read block by block, the reference's by its run read operation by operation. -/
theorem algebraic : Cert.algebraic_KernelIdeal_ReferenceIdeal := by
  intro m ρ m' ρ' _ hagree
  refine ⟨fun c => Cert.SignNet.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v61_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
